-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S32 : Shape := ⟨1, ![32]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) (main_arg1 : IVec S32 32) (main_arg2 : IVec S32 32) (main_arg3 : IVec S32 32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S32 : Shape := ⟨1, ![32]⟩
abbrev S_ : Shape := ⟨0, ![]⟩
abbrev S512 : Shape := ⟨1, ![512]⟩
abbrev S1x512 : Shape := ⟨2, ![1, 512]⟩
abbrev S32x1 : Shape := ⟨2, ![32, 1]⟩
abbrev S32x512 : Shape := ⟨2, ![32, 512]⟩
abbrev S32x512x1 : Shape := ⟨3, ![32, 512, 1]⟩
abbrev S32x512x3 : Shape := ⟨3, ![32, 512, 3]⟩
abbrev S32x1536 : Shape := ⟨2, ![32, 1536]⟩
abbrev S32x1x1536 : Shape := ⟨3, ![32, 1, 1536]⟩
abbrev S32x512x1536 : Shape := ⟨3, ![32, 512, 1536]⟩
abbrev S1x512x1536 : Shape := ⟨3, ![1, 512, 1536]⟩
abbrev S1x512x1 : Shape := ⟨3, ![1, 512, 1]⟩
abbrev S1x1x1536 : Shape := ⟨3, ![1, 1, 1536]⟩
abbrev S512x1536 : Shape := ⟨2, ![512, 1536]⟩
abbrev S512x1 : Shape := ⟨2, ![512, 1]⟩
abbrev S1x1536 : Shape := ⟨2, ![1, 1536]⟩

abbrev nBuf : Space → Nat
  | .hbm => 144
  | .vmem => 8
  | .smem => 0
  | _ => 0

abbrev hbmTy0_0 (i : Nat) : BufTy := match i % 128 with
  | 0 => ⟨S32x512x512x3, .f32⟩
  | 1 => ⟨S32, .i32⟩
  | 2 => ⟨S32, .i32⟩
  | 3 => ⟨S32, .i32⟩
  | 4 => ⟨S_, .i32⟩
  | 5 => ⟨S32, .i32⟩
  | 6 => ⟨S32, .i32⟩
  | 7 => ⟨S32, .f32⟩
  | 8 => ⟨S_, .f32⟩
  | 9 => ⟨S32, .f32⟩
  | 10 => ⟨S32, .f32⟩
  | 11 => ⟨S32, .f32⟩
  | 12 => ⟨S32, .i32⟩
  | 13 => ⟨S_, .i32⟩
  | 14 => ⟨S32, .i32⟩
  | 15 => ⟨S32, .i1⟩
  | 16 => ⟨S_, .i32⟩
  | 17 => ⟨S32, .i32⟩
  | 18 => ⟨S32, .i32⟩
  | 19 => ⟨S32, .i32⟩
  | 20 => ⟨S_, .i32⟩
  | 21 => ⟨S32, .i32⟩
  | 22 => ⟨S32, .i1⟩
  | 23 => ⟨S_, .i32⟩
  | 24 => ⟨S32, .i32⟩
  | 25 => ⟨S32, .i1⟩
  | 26 => ⟨S_, .i32⟩
  | 27 => ⟨S32, .i32⟩
  | 28 => ⟨S32, .i1⟩
  | 29 => ⟨S32, .i1⟩
  | 30 => ⟨S32, .i1⟩
  | 31 => ⟨S32, .i32⟩
  | 32 => ⟨S32, .i32⟩
  | 33 => ⟨S_, .i32⟩
  | 34 => ⟨S32, .i32⟩
  | 35 => ⟨S32, .i1⟩
  | 36 => ⟨S_, .i32⟩
  | 37 => ⟨S32, .i32⟩
  | 38 => ⟨S32, .i32⟩
  | 39 => ⟨S32, .i32⟩
  | 40 => ⟨S_, .i32⟩
  | 41 => ⟨S32, .i32⟩
  | 42 => ⟨S32, .i1⟩
  | 43 => ⟨S_, .i32⟩
  | 44 => ⟨S32, .i32⟩
  | 45 => ⟨S32, .i1⟩
  | 46 => ⟨S_, .i32⟩
  | 47 => ⟨S32, .i32⟩
  | 48 => ⟨S32, .i1⟩
  | 49 => ⟨S32, .i1⟩
  | 50 => ⟨S32, .i1⟩
  | 51 => ⟨S32, .i32⟩
  | 52 => ⟨S32, .i32⟩
  | 53 => ⟨S512, .i32⟩
  | 54 => ⟨S1x512, .i32⟩
  | 55 => ⟨S_, .i32⟩
  | 56 => ⟨S1x512, .i32⟩
  | 57 => ⟨S1x512, .i32⟩
  | 58 => ⟨S512, .i32⟩
  | 59 => ⟨S1x512, .i32⟩
  | 60 => ⟨S_, .i32⟩
  | 61 => ⟨S1x512, .i32⟩
  | 62 => ⟨S1x512, .i32⟩
  | 63 => ⟨S32x1, .i32⟩
  | 64 => ⟨S32x512, .i32⟩
  | 65 => ⟨S32x512, .i32⟩
  | 66 => ⟨S32x512, .i32⟩
  | 67 => ⟨S32x1, .i32⟩
  | 68 => ⟨S_, .i32⟩
  | 69 => ⟨S32x1, .i32⟩
  | 70 => ⟨S32x1, .i1⟩
  | 71 => ⟨S_, .i32⟩
  | 72 => ⟨S32x1, .i32⟩
  | 73 => ⟨S32x1, .i32⟩
  | 74 => ⟨S32x512, .i32⟩
  | 75 => ⟨S32x512, .i32⟩
  | 76 => ⟨S_, .i32⟩
  | 77 => ⟨S32x512, .i32⟩
  | 78 => ⟨S32x512, .i1⟩
  | 79 => ⟨S_, .i32⟩
  | 80 => ⟨S32x512, .i32⟩
  | 81 => ⟨S32x512, .i1⟩
  | 82 => ⟨S_, .i32⟩
  | 83 => ⟨S32x1, .i32⟩
  | 84 => ⟨S32x1, .i1⟩
  | 85 => ⟨S32x512, .i1⟩
  | 86 => ⟨S32x512, .i1⟩
  | 87 => ⟨S32x512, .i1⟩
  | 88 => ⟨S32x512, .i32⟩
  | 89 => ⟨S32x512, .i32⟩
  | 90 => ⟨S32x512, .i32⟩
  | 91 => ⟨S32x1, .i32⟩
  | 92 => ⟨S32x512, .i32⟩
  | 93 => ⟨S32x512, .i1⟩
  | 94 => ⟨S32x1, .i32⟩
  | 95 => ⟨S32x512, .i32⟩
  | 96 => ⟨S32x512, .i32⟩
  | 97 => ⟨S32x512, .i32⟩
  | 98 => ⟨S32x1, .i32⟩
  | 99 => ⟨S_, .i32⟩
  | 100 => ⟨S32x1, .i32⟩
  | 101 => ⟨S32x1, .i1⟩
  | 102 => ⟨S_, .i32⟩
  | 103 => ⟨S32x1, .i32⟩
  | 104 => ⟨S32x1, .i32⟩
  | 105 => ⟨S32x512, .i32⟩
  | 106 => ⟨S32x512, .i32⟩
  | 107 => ⟨S_, .i32⟩
  | 108 => ⟨S32x512, .i32⟩
  | 109 => ⟨S32x512, .i1⟩
  | 110 => ⟨S_, .i32⟩
  | 111 => ⟨S32x512, .i32⟩
  | 112 => ⟨S32x512, .i1⟩
  | 113 => ⟨S_, .i32⟩
  | 114 => ⟨S32x1, .i32⟩
  | 115 => ⟨S32x1, .i1⟩
  | 116 => ⟨S32x512, .i1⟩
  | 117 => ⟨S32x512, .i1⟩
  | 118 => ⟨S32x512, .i1⟩
  | 119 => ⟨S32x512, .i32⟩
  | 120 => ⟨S32x512, .i32⟩
  | 121 => ⟨S32x512, .i32⟩
  | 122 => ⟨S32x1, .i32⟩
  | 123 => ⟨S32x512, .i32⟩
  | 124 => ⟨S32x512, .i1⟩
  | 125 => ⟨S_, .f32⟩
  | 126 => ⟨S_, .f32⟩
  | 127 => ⟨S32x512, .f32⟩
  | _ => ⟨S32x512x512x3, .f32⟩

abbrev hbmTy0_1 (i : Nat) : BufTy := match i % 128 with
  | 0 => ⟨S32x512, .f32⟩
  | 1 => ⟨S32x512, .f32⟩
  | 2 => ⟨S32x512, .f32⟩
  | 3 => ⟨S_, .f32⟩
  | 4 => ⟨S_, .f32⟩
  | 5 => ⟨S32x512, .f32⟩
  | 6 => ⟨S32x512, .f32⟩
  | 7 => ⟨S32x512, .f32⟩
  | 8 => ⟨S32x512, .f32⟩
  | 9 => ⟨S32x512x1, .f32⟩
  | 10 => ⟨S32x512x3, .f32⟩
  | 11 => ⟨S32x1536, .f32⟩
  | 12 => ⟨S32x1x1536, .f32⟩
  | 13 => ⟨S32x512x1536, .f32⟩
  | 14 => ⟨S32x512x1536, .f32⟩
  | 15 => ⟨S32x512x512x3, .f32⟩
  | _ => ⟨S32x512x512x3, .f32⟩

abbrev hbmTy (i : Nat) : BufTy := match i / 128 with
  | 0 => hbmTy0_0 i
  | 1 => hbmTy0_1 i
  | _ => ⟨S32x512x512x3, .f32⟩

abbrev bufTy : (tb : Table) → Fin (tcTables nBuf tb) → BufTy
  | .hbm, ⟨i, _⟩ => hbmTy i
  | .local _ .vmem, ⟨0, _⟩ => ⟨S1x512x1536, .f32⟩
  | .local _ .vmem, ⟨1, _⟩ => ⟨S1x512x1536, .f32⟩
  | .local _ .vmem, ⟨2, _⟩ => ⟨S1x512x1, .f32⟩
  | .local _ .vmem, ⟨3, _⟩ => ⟨S1x512x1, .f32⟩
  | .local _ .vmem, ⟨4, _⟩ => ⟨S1x1x1536, .f32⟩
  | .local _ .vmem, ⟨5, _⟩ => ⟨S1x1x1536, .f32⟩
  | .local _ .vmem, ⟨6, _⟩ => ⟨S1x512x1536, .f32⟩
  | .local _ .vmem, ⟨7, _⟩ => ⟨S1x512x1536, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c_0 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_1 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_v6 : Ref sig .tc := ⟨.hbm, 77, rfl⟩
abbrev main_call2_v7 : Ref sig .tc := ⟨.hbm, 78, rfl⟩
abbrev main_call2_c_2 : Ref sig .tc := ⟨.hbm, 79, rfl⟩
abbrev main_call2_v8 : Ref sig .tc := ⟨.hbm, 80, rfl⟩
abbrev main_call2_v9 : Ref sig .tc := ⟨.hbm, 81, rfl⟩
abbrev main_call2_c_3 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_v15 : Ref sig .tc := ⟨.hbm, 88, rfl⟩
abbrev main_call2_v16 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_v6 : Ref sig .tc := ⟨.hbm, 108, rfl⟩
abbrev main_call3_v7 : Ref sig .tc := ⟨.hbm, 109, rfl⟩
abbrev main_call3_c_2 : Ref sig .tc := ⟨.hbm, 110, rfl⟩
abbrev main_call3_v8 : Ref sig .tc := ⟨.hbm, 111, rfl⟩
abbrev main_call3_v9 : Ref sig .tc := ⟨.hbm, 112, rfl⟩
abbrev main_call3_c_3 : Ref sig .tc := ⟨.hbm, 113, rfl⟩
abbrev main_call3_v10 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_v15 : Ref sig .tc := ⟨.hbm, 119, rfl⟩
abbrev main_call3_v16 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_cst_2 : Ref sig .tc := ⟨.hbm, 125, rfl⟩
abbrev main_cst_3 : Ref sig .tc := ⟨.hbm, 126, rfl⟩
abbrev main_call4_v0 : Ref sig .tc := ⟨.hbm, 127, rfl⟩
abbrev main_call4_v1 : Ref sig .tc := ⟨.hbm, 128, rfl⟩
abbrev main_v35 : Ref sig .tc := ⟨.hbm, 129, rfl⟩
abbrev main_v36 : Ref sig .tc := ⟨.hbm, 130, rfl⟩
abbrev main_cst_4 : Ref sig .tc := ⟨.hbm, 131, rfl⟩
abbrev main_cst_5 : Ref sig .tc := ⟨.hbm, 132, rfl⟩
abbrev main_call5_v0 : Ref sig .tc := ⟨.hbm, 133, rfl⟩
abbrev main_call5_v1 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32 : S_.BroadcastsInDim S32 (![] : Fin 0 → Fin S32.rank)
  bcast_S512_S1x512_1 : S512.BroadcastsInDim S1x512 (![1] : Fin 1 → Fin S1x512.rank)
  bcast_S_S1x512 : S_.BroadcastsInDim S1x512 (![] : Fin 0 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  bcast_S_S32x1 : S_.BroadcastsInDim S32x1 (![] : Fin 0 → Fin S32x1.rank)
  bcast_S_S32x512 : S_.BroadcastsInDim S32x512 (![] : Fin 0 → Fin S32x512.rank)
  shapeCasts_S32x512_S32x512x1 : S32x512.ShapeCasts S32x512x1
  bcast_S32x512_S32x512x3_0_1 : S32x512.BroadcastsInDim S32x512x3 (![0, 1] : Fin 2 → Fin S32x512x3.rank)
  shapeCasts_S32x512x3_S32x1536 : S32x512x3.ShapeCasts S32x1536
  shapeCasts_S32x1536_S32x1x1536 : S32x1536.ShapeCasts S32x1x1536
  shapeCasts_S32x512x512x3_S32x512x1536 : S32x512x512x3.ShapeCasts S32x512x1536
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1536 : S512x1.Broadcasts S512x1536
  inb_S1x1x1536_S1x1x1536_0_0_0 : ∀ a, (![0, 0, 0] : Fin 3 → Nat) a + S1x1x1536.size a ≤ S1x1x1536.size a
  h_S1x1x1536 : 0 < S1x1x1536.numel
  shapeCasts_S1x1x1536_S1x1536 : S1x1x1536.ShapeCasts S1x1536
  broadcasts_S1x1536_S512x1536 : S1x1536.Broadcasts S512x1536
  shapeCasts_S512x1536_S1x512x1536 : S512x1536.ShapeCasts S1x512x1536
  shapeCasts_S32x512x1536_S32x512x512x3 : S32x512x1536.ShapeCasts S32x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S32x512x1536.size a
  hwx0_0 : ∀ i : grid0.Coords, EltTy.bits .f32 = 32 ∨ (Rect.block (s := S32x512x1536) S1x512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x512x1.size a
  hwx0_1 : ∀ i : grid0.Coords, EltTy.bits .f32 = 32 ∨ (Rect.block (s := S32x512x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1536.size a ≤ S32x1x1536.size a
  hwx0_2 : ∀ i : grid0.Coords, EltTy.bits .f32 = 32 ∨ (Rect.block (s := S32x1x1536) S1x1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1536.size a ≤ S32x512x1536.size a
  hwx0_3 : ∀ i : grid0.Coords, EltTy.bits .f32 = 32 ∨ (Rect.block (s := S32x512x1536) S1x512x1536.size (cc0_transform_3 i) (hinb0_3 i)).WholeWords (EltTy.packing .f32)

variable [Facts₀]

abbrev win0_0 : Pipeline.Window sig grid0 :=
  Pipeline.Window.ofSpec (Memref.whole main_v43) S1x512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x1x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S32 : Shape := ⟨1, ![32]⟩
abbrev S_ : Shape := ⟨0, ![]⟩
abbrev S512 : Shape := ⟨1, ![512]⟩
abbrev S1x512 : Shape := ⟨2, ![1, 512]⟩
abbrev S32x1 : Shape := ⟨2, ![32, 1]⟩
abbrev S32x512 : Shape := ⟨2, ![32, 512]⟩
abbrev S32x512x1 : Shape := ⟨3, ![32, 512, 1]⟩
abbrev S32x1x512 : Shape := ⟨3, ![32, 1, 512]⟩
abbrev S32x512x512 : Shape := ⟨3, ![32, 512, 512]⟩
abbrev S32x512x512x1 : Shape := ⟨4, ![32, 512, 512, 1]⟩

abbrev nBuf : Space → Nat
  | .hbm => 139
  | .vmem => 0
  | .smem => 0
  | _ => 0

abbrev hbmTy0_0 (i : Nat) : BufTy := match i % 128 with
  | 0 => ⟨S32x512x512x3, .f32⟩
  | 1 => ⟨S32, .i32⟩
  | 2 => ⟨S32, .i32⟩
  | 3 => ⟨S32, .i32⟩
  | 4 => ⟨S_, .i32⟩
  | 5 => ⟨S32, .i32⟩
  | 6 => ⟨S32, .i32⟩
  | 7 => ⟨S32, .f32⟩
  | 8 => ⟨S_, .f32⟩
  | 9 => ⟨S32, .f32⟩
  | 10 => ⟨S32, .f32⟩
  | 11 => ⟨S32, .f32⟩
  | 12 => ⟨S32, .i32⟩
  | 13 => ⟨S_, .i32⟩
  | 14 => ⟨S32, .i32⟩
  | 15 => ⟨S32, .i1⟩
  | 16 => ⟨S_, .i32⟩
  | 17 => ⟨S32, .i32⟩
  | 18 => ⟨S32, .i32⟩
  | 19 => ⟨S32, .i32⟩
  | 20 => ⟨S_, .i32⟩
  | 21 => ⟨S32, .i32⟩
  | 22 => ⟨S32, .i1⟩
  | 23 => ⟨S_, .i32⟩
  | 24 => ⟨S32, .i32⟩
  | 25 => ⟨S32, .i1⟩
  | 26 => ⟨S_, .i32⟩
  | 27 => ⟨S32, .i32⟩
  | 28 => ⟨S32, .i1⟩
  | 29 => ⟨S32, .i1⟩
  | 30 => ⟨S32, .i1⟩
  | 31 => ⟨S32, .i32⟩
  | 32 => ⟨S32, .i32⟩
  | 33 => ⟨S_, .i32⟩
  | 34 => ⟨S32, .i32⟩
  | 35 => ⟨S32, .i1⟩
  | 36 => ⟨S_, .i32⟩
  | 37 => ⟨S32, .i32⟩
  | 38 => ⟨S32, .i32⟩
  | 39 => ⟨S32, .i32⟩
  | 40 => ⟨S_, .i32⟩
  | 41 => ⟨S32, .i32⟩
  | 42 => ⟨S32, .i1⟩
  | 43 => ⟨S_, .i32⟩
  | 44 => ⟨S32, .i32⟩
  | 45 => ⟨S32, .i1⟩
  | 46 => ⟨S_, .i32⟩
  | 47 => ⟨S32, .i32⟩
  | 48 => ⟨S32, .i1⟩
  | 49 => ⟨S32, .i1⟩
  | 50 => ⟨S32, .i1⟩
  | 51 => ⟨S32, .i32⟩
  | 52 => ⟨S32, .i32⟩
  | 53 => ⟨S512, .i32⟩
  | 54 => ⟨S_, .i32⟩
  | 55 => ⟨S512, .i32⟩
  | 56 => ⟨S512, .i32⟩
  | 57 => ⟨S512, .i32⟩
  | 58 => ⟨S_, .i32⟩
  | 59 => ⟨S512, .i32⟩
  | 60 => ⟨S512, .i32⟩
  | 61 => ⟨S1x512, .i32⟩
  | 62 => ⟨S32x1, .i32⟩
  | 63 => ⟨S32x512, .i32⟩
  | 64 => ⟨S32x512, .i32⟩
  | 65 => ⟨S32x512, .i32⟩
  | 66 => ⟨S32x1, .i32⟩
  | 67 => ⟨S_, .i32⟩
  | 68 => ⟨S32x1, .i32⟩
  | 69 => ⟨S32x1, .i1⟩
  | 70 => ⟨S_, .i32⟩
  | 71 => ⟨S32x1, .i32⟩
  | 72 => ⟨S32x1, .i32⟩
  | 73 => ⟨S32x512, .i32⟩
  | 74 => ⟨S32x512, .i32⟩
  | 75 => ⟨S_, .i32⟩
  | 76 => ⟨S32x512, .i32⟩
  | 77 => ⟨S32x512, .i1⟩
  | 78 => ⟨S_, .i32⟩
  | 79 => ⟨S32x512, .i32⟩
  | 80 => ⟨S32x512, .i1⟩
  | 81 => ⟨S_, .i32⟩
  | 82 => ⟨S32x1, .i32⟩
  | 83 => ⟨S32x1, .i1⟩
  | 84 => ⟨S32x512, .i1⟩
  | 85 => ⟨S32x512, .i1⟩
  | 86 => ⟨S32x512, .i1⟩
  | 87 => ⟨S32x512, .i32⟩
  | 88 => ⟨S32x512, .i32⟩
  | 89 => ⟨S32x512, .i32⟩
  | 90 => ⟨S32x1, .i32⟩
  | 91 => ⟨S32x512, .i32⟩
  | 92 => ⟨S32x512, .i1⟩
  | 93 => ⟨S1x512, .i32⟩
  | 94 => ⟨S32x1, .i32⟩
  | 95 => ⟨S32x512, .i32⟩
  | 96 => ⟨S32x512, .i32⟩
  | 97 => ⟨S32x512, .i32⟩
  | 98 => ⟨S32x1, .i32⟩
  | 99 => ⟨S_, .i32⟩
  | 100 => ⟨S32x1, .i32⟩
  | 101 => ⟨S32x1, .i1⟩
  | 102 => ⟨S_, .i32⟩
  | 103 => ⟨S32x1, .i32⟩
  | 104 => ⟨S32x1, .i32⟩
  | 105 => ⟨S32x512, .i32⟩
  | 106 => ⟨S32x512, .i32⟩
  | 107 => ⟨S_, .i32⟩
  | 108 => ⟨S32x512, .i32⟩
  | 109 => ⟨S32x512, .i1⟩
  | 110 => ⟨S_, .i32⟩
  | 111 => ⟨S32x512, .i32⟩
  | 112 => ⟨S32x512, .i1⟩
  | 113 => ⟨S_, .i32⟩
  | 114 => ⟨S32x1, .i32⟩
  | 115 => ⟨S32x1, .i1⟩
  | 116 => ⟨S32x512, .i1⟩
  | 117 => ⟨S32x512, .i1⟩
  | 118 => ⟨S32x512, .i1⟩
  | 119 => ⟨S32x512, .i32⟩
  | 120 => ⟨S32x512, .i32⟩
  | 121 => ⟨S32x512, .i32⟩
  | 122 => ⟨S32x1, .i32⟩
  | 123 => ⟨S32x512, .i32⟩
  | 124 => ⟨S32x512, .i1⟩
  | 125 => ⟨S32x512x1, .i1⟩
  | 126 => ⟨S32x1x512, .i1⟩
  | 127 => ⟨S32x512x512, .i1⟩
  | _ => ⟨S32x512x512x3, .f32⟩

abbrev hbmTy0_1 (i : Nat) : BufTy := match i % 128 with
  | 0 => ⟨S32x512x512, .i1⟩
  | 1 => ⟨S32x512x512, .i1⟩
  | 2 => ⟨S_, .f32⟩
  | 3 => ⟨S_, .f32⟩
  | 4 => ⟨S32x512x512, .f32⟩
  | 5 => ⟨S32x512x512, .f32⟩
  | 6 => ⟨S32x512x512, .f32⟩
  | 7 => ⟨S32x512x512, .f32⟩
  | 8 => ⟨S32x512x512x1, .f32⟩
  | 9 => ⟨S32x512x512x3, .f32⟩
  | 10 => ⟨S32x512x512x3, .f32⟩
  | _ => ⟨S32x512x512x3, .f32⟩

abbrev hbmTy (i : Nat) : BufTy := match i / 128 with
  | 0 => hbmTy0_0 i
  | 1 => hbmTy0_1 i
  | _ => ⟨S32x512x512x3, .f32⟩

abbrev bufTy : (tb : Table) → Fin (tcTables nBuf tb) → BufTy
  | .hbm, ⟨i, _⟩ => hbmTy i
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_v8 : Ref sig .tc := ⟨.hbm, 52, rfl⟩
abbrev main_v9 : Ref sig .tc := ⟨.hbm, 53, rfl⟩
abbrev main_c_0 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_c_1 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_v6 : Ref sig .tc := ⟨.hbm, 76, rfl⟩
abbrev main_call2_v7 : Ref sig .tc := ⟨.hbm, 77, rfl⟩
abbrev main_call2_c_2 : Ref sig .tc := ⟨.hbm, 78, rfl⟩
abbrev main_call2_v8 : Ref sig .tc := ⟨.hbm, 79, rfl⟩
abbrev main_call2_v9 : Ref sig .tc := ⟨.hbm, 80, rfl⟩
abbrev main_call2_c_3 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_v15 : Ref sig .tc := ⟨.hbm, 87, rfl⟩
abbrev main_call2_v16 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_v6 : Ref sig .tc := ⟨.hbm, 108, rfl⟩
abbrev main_call3_v7 : Ref sig .tc := ⟨.hbm, 109, rfl⟩
abbrev main_call3_c_2 : Ref sig .tc := ⟨.hbm, 110, rfl⟩
abbrev main_call3_v8 : Ref sig .tc := ⟨.hbm, 111, rfl⟩
abbrev main_call3_v9 : Ref sig .tc := ⟨.hbm, 112, rfl⟩
abbrev main_call3_c_3 : Ref sig .tc := ⟨.hbm, 113, rfl⟩
abbrev main_call3_v10 : Ref sig .tc := ⟨.hbm, 114, rfl⟩
abbrev main_call3_v11 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_v15 : Ref sig .tc := ⟨.hbm, 119, rfl⟩
abbrev main_call3_v16 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_cst_2 : Ref sig .tc := ⟨.hbm, 130, rfl⟩
abbrev main_cst_3 : Ref sig .tc := ⟨.hbm, 131, rfl⟩
abbrev main_call4_v0 : Ref sig .tc := ⟨.hbm, 132, rfl⟩
abbrev main_call4_v1 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S_S512 : S_.BroadcastsInDim S512 (![] : Fin 0 → Fin S512.rank)
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  bcast_S_S32x1 : S_.BroadcastsInDim S32x1 (![] : Fin 0 → Fin S32x1.rank)
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  bcast_S32x512x512_S32x512x512x1_0_1_2 : S32x512x512.BroadcastsInDim S32x512x512x1 (![0, 1, 2] : Fin 3 → Fin S32x512x512x1.rank)
  bcast_S32x512x512x1_S32x512x512x3_0_1_2_3 : S32x512x512x1.BroadcastsInDim S32x512x512x3 (![0, 1, 2, 3] : Fin 4 → Fin S32x512x512x3.rank)

variable [Facts₀]

class Facts : Prop extends Facts₀ where

variable [Facts]
-- ==== Proof.Spec.lean ====
/-
  What both programs compute, stated once and apart from either program.

  An image batch x : [32,512,512,3] is multiplied by a 0/1 stripe mask built from three vectors of 32 machine
  integers. Per image b: a period d(b) = 96 + a1(b), a stripe width l(b) = ceil(d(b)/2) taken through the floats,
  a phase s(b) = st(b) mod d(b) (floor remainder), and for the 512 coordinates y = 106 + k the predicate
  ((y - s(b)) mod d(b)) < l(b): true inside a stripe. Rows use the phases a2, columns the phases a3; the image
  sizes and offsets agree, so one function (`stripe`) serves both.

  The reference keeps x(b,h,w,c) where neither the row h nor the column w is striped: x · sel(rz(b,h) ∨ cz(b,w)),
  sel(true) = 0, sel(false) = 1. The kernel multiplies twice, (x · sel(rz(b,h))) · sel(cz(b,w)), on the images
  flattened to [32,512,1536] with each column flag repeated over the three channels. On the extended reals
  0 annihilates every value and 1 is neutral, so the two agree for every x, finite or not (`keep_mul`).
-/
import Idealize.ShloMosaic.PureOps
import Idealize.ShloMosaic.PureOps.Ideal
import Idealize.ShloMosaic.Lib.ValueIdx

noncomputable section

namespace Cert.GridMask

open Idealize.ShloMosaic

abbrev S_ : Shape := ⟨0, ![]⟩
abbrev S32 : Shape := ⟨1, ![32]⟩
abbrev S512 : Shape := ⟨1, ![512]⟩
abbrev S1x512 : Shape := ⟨2, ![1, 512]⟩
abbrev S32x1 : Shape := ⟨2, ![32, 1]⟩
abbrev S32x512 : Shape := ⟨2, ![32, 512]⟩
abbrev S32x512x1 : Shape := ⟨3, ![32, 512, 1]⟩
abbrev S32x1x512 : Shape := ⟨3, ![32, 1, 512]⟩
abbrev S32x512x512 : Shape := ⟨3, ![32, 512, 512]⟩
abbrev S32x512x512x1 : Shape := ⟨4, ![32, 512, 512, 1]⟩
abbrev S32x512x512x3 : Shape := ⟨4, ![32, 512, 512, 3]⟩
abbrev S32x512x3 : Shape := ⟨3, ![32, 512, 3]⟩
abbrev S32x1536 : Shape := ⟨2, ![32, 1536]⟩
abbrev S32x1x1536 : Shape := ⟨3, ![32, 1, 1536]⟩
abbrev S32x512x1536 : Shape := ⟨3, ![32, 512, 1536]⟩

theorem b_S_S32 : S_.BroadcastsInDim S32 (![] : Fin 0 → Fin S32.rank) := by decide
theorem b_S_S512 : S_.BroadcastsInDim S512 (![] : Fin 0 → Fin S512.rank) := by decide
theorem b_S_S1x512 : S_.BroadcastsInDim S1x512 (![] : Fin 0 → Fin S1x512.rank) := by decide
theorem b_S_S32x1 : S_.BroadcastsInDim S32x1 (![] : Fin 0 → Fin S32x1.rank) := by decide
theorem b_S_S32x512 : S_.BroadcastsInDim S32x512 (![] : Fin 0 → Fin S32x512.rank) := by decide
theorem b_S_S32x512x512 : S_.BroadcastsInDim S32x512x512 (![] : Fin 0 → Fin S32x512x512.rank) := by decide
theorem b_S512_S1x512 : S512.BroadcastsInDim S1x512 (![1] : Fin 1 → Fin S1x512.rank) := by decide
theorem b_S32_S32x1 : S32.BroadcastsInDim S32x1 (![0] : Fin 1 → Fin S32x1.rank) := by decide
theorem b_S1x512_S32x512 : S1x512.BroadcastsInDim S32x512 (![0, 1] : Fin 2 → Fin S32x512.rank) := by decide
theorem b_S32x1_S32x512 : S32x1.BroadcastsInDim S32x512 (![0, 1] : Fin 2 → Fin S32x512.rank) := by decide
theorem b_S32x512_S32x512x1 : S32x512.BroadcastsInDim S32x512x1 (![0, 1] : Fin 2 → Fin S32x512x1.rank) := by decide
theorem b_S32x512_S32x1x512 : S32x512.BroadcastsInDim S32x1x512 (![0, 2] : Fin 2 → Fin S32x1x512.rank) := by decide
theorem b_S32x512x1_S32x512x512 : S32x512x1.BroadcastsInDim S32x512x512 (![0, 1, 2] : Fin 3 → Fin S32x512x512.rank) := by decide
theorem b_S32x1x512_S32x512x512 : S32x1x512.BroadcastsInDim S32x512x512 (![0, 1, 2] : Fin 3 → Fin S32x512x512.rank) := by decide
theorem b_S32x512x512_S32x512x512x1 : S32x512x512.BroadcastsInDim S32x512x512x1 (![0, 1, 2] : Fin 3 → Fin S32x512x512x1.rank) := by decide
theorem b_S32x512x512x1_S32x512x512x3 : S32x512x512x1.BroadcastsInDim S32x512x512x3 (![0, 1, 2, 3] : Fin 4 → Fin S32x512x512x3.rank) := by decide
theorem b_S32x512_S32x512x3 : S32x512.BroadcastsInDim S32x512x3 (![0, 1] : Fin 2 → Fin S32x512x3.rank) := by decide
theorem c_S32x512_S32x512x1 : S32x512.ShapeCasts S32x512x1 := by decide
theorem c_S32x512x3_S32x1536 : S32x512x3.ShapeCasts S32x1536 := by decide
theorem c_S32x1536_S32x1x1536 : S32x1536.ShapeCasts S32x1x1536 := by decide
theorem c_S32x512x512x3_S32x512x1536 : S32x512x512x3.ShapeCasts S32x512x1536 := by decide
theorem c_S32x512x1536_S32x512x512x3 : S32x512x1536.ShapeCasts S32x512x512x3 := by decide

variable {F : FTy → Type} [FloatOps F]

/-! ## The integer side: periods, widths, phases, stripes -/

/-- The floor remainder x mod d of 32 words by 32 divisors, as the host spells it: a zero divisor is replaced by 1,
    the truncating remainder is taken, and the divisor is added back where the remainder is nonzero and its sign
    differs from the divisor's. -/
def floorRem1 (x d : IVec S32 32) : IVec S32 32 :=
  let z : IVec S32 32 := broadcastInDim S32 ![] b_S_S32 (constantI S_ 32 0#32)
  let o : IVec S32 32 := broadcastInDim S32 ![] b_S_S32 (constantI S_ 32 1#32)
  let d' : IVec S32 32 := select (cmpi .eq d z) o d
  let r : IVec S32 32 := Host.remsi x d'
  select (andi (cmpi .ne (cmpi .slt r z) (cmpi .slt d' z)) (cmpi .ne r z)) (addi r d') r

/-- The same floor remainder of a 32x512 grid by one divisor per row. -/
def floorRem2 (x : IVec S32x512 32) (d : IVec S32x1 32) : IVec S32x512 32 :=
  let z1 : IVec S32x1 32 := broadcastInDim S32x1 ![] b_S_S32x1 (constantI S_ 32 0#32)
  let o1 : IVec S32x1 32 := broadcastInDim S32x1 ![] b_S_S32x1 (constantI S_ 32 1#32)
  let z2 : IVec S32x512 32 := broadcastInDim S32x512 ![] b_S_S32x512 (constantI S_ 32 0#32)
  let d' : IVec S32x1 32 := select (cmpi .eq d z1) o1 d
  let D : IVec S32x512 32 := broadcastInDim S32x512 ![0, 1] b_S32x1_S32x512 d'
  let r : IVec S32x512 32 := Host.remsi x D
  select (andi (cmpi .ne (cmpi .slt r z2) (broadcastInDim S32x512 ![0, 1] b_S32x1_S32x512 (cmpi .slt d' z1))) (cmpi .ne r z2))
    (addi r D) r

/-- The stripe period of each image: 96 + a1. -/
def period (a1 : IVec S32 32) : IVec S32 32 :=
  addi (broadcastInDim S32 ![] b_S_S32 (constantI S_ 32 96#32)) a1

/-- The stripe width of each image: the period as a float, halved, rounded up, back to an integer. -/
def width (a1 : IVec S32 32) : IVec S32 32 :=
  fptosi 32 (Host.ceil (mulf (sitofp (F := F) .f32 (period a1)) (broadcastInDim S32 ![] b_S_S32 (constant (F := F) S_ .f32 0x3F000000#32))))

/-- The coordinates 106 + k, k < 512, laid over the 32 images: added as a vector and then spread, -/
def coords : IVec S32x512 32 :=
  broadcastInDim S32x512 ![0, 1] b_S1x512_S32x512 (broadcastInDim S1x512 ![1] b_S512_S1x512
    (addi (broadcastInDim S512 ![] b_S_S512 (constantI S_ 32 106#32)) (iotaInDim S512 32 0)))

/-- or spread to one row first and added there. -/
def coordsRow : IVec S32x512 32 :=
  broadcastInDim S32x512 ![0, 1] b_S1x512_S32x512
    (addi (broadcastInDim S1x512 ![] b_S_S1x512 (constantI S_ 32 106#32)) (broadcastInDim S1x512 ![1] b_S512_S1x512 (iotaInDim S512 32 0)))

/-- The two spellings are one grid: 106 + k at every (b, k). -/
theorem coordsRow_eq : coordsRow = coords := rfl

/-- Which of the 512 coordinates of each image lie in a stripe, for phases `st` and the periods and widths of `a1`,
    over a coordinate grid `yy`. -/
def stripeOver (yy : IVec S32x512 32) (a1 st : IVec S32 32) : IVec S32x512 1 :=
  cmpi .slt
    (floorRem2 (subi yy (broadcastInDim S32x512 ![0, 1] b_S32x1_S32x512 (broadcastInDim S32x1 ![0] b_S32_S32x1 (floorRem1 st (period a1)))))
      (broadcastInDim S32x1 ![0] b_S32_S32x1 (period a1)))
    (broadcastInDim S32x512 ![0, 1] b_S32x1_S32x512 (broadcastInDim S32x1 ![0] b_S32_S32x1 (width (F := F) a1)))

/-- The stripes over the coordinates 106 + k. -/
def stripe (a1 st : IVec S32 32) : IVec S32x512 1 := stripeOver (F := F) coords a1 st

/-! ## The float side -/

/-- 0 where the flag is set, 1 elsewhere, on a 32x512 grid of flags. -/
def keep2 (z : IVec S32x512 1) : FVec F S32x512 .f32 :=
  id (select z (broadcastInDim S32x512 ![] b_S_S32x512 (constant (F := F) S_ .f32 0x00000000#32))
    (broadcastInDim S32x512 ![] b_S_S32x512 (constant (F := F) S_ .f32 0x3F800000#32)))

/-- The reference's result from the image batch and the two stripe grids: x times 0 where the row or the column is
    striped, times 1 elsewhere, the mask spread over the three channels. -/
def refForm (a0 : FVec F S32x512x512x3 .f32) (rz cz : IVec S32x512 1) : FVec F S32x512x512x3 .f32 :=
  mulf a0 (broadcastInDim S32x512x512x3 ![0, 1, 2, 3] b_S32x512x512x1_S32x512x512x3
    (broadcastInDim S32x512x512x1 ![0, 1, 2] b_S32x512x512_S32x512x512x1
      (id (select
        (ori (broadcastInDim S32x512x512 ![0, 1, 2] b_S32x512x1_S32x512x512 (broadcastInDim S32x512x1 ![0, 1] b_S32x512_S32x512x1 rz))
          (broadcastInDim S32x512x512 ![0, 1, 2] b_S32x1x512_S32x512x512 (broadcastInDim S32x1x512 ![0, 2] b_S32x512_S32x1x512 cz)))
        (broadcastInDim S32x512x512 ![] b_S_S32x512x512 (constant (F := F) S_ .f32 0x00000000#32))
        (broadcastInDim S32x512x512 ![] b_S_S32x512x512 (constant (F := F) S_ .f32 0x3F800000#32))))))

/-- The kernel's three staged operands: the batch with width and channels merged, -/
def xFlat (a0 : FVec F S32x512x512x3 .f32) : FVec F S32x512x1536 .f32 := shapeCast S32x512x1536 a0 c_S32x512x512x3_S32x512x1536
/-- the row factors as a column per image, -/
def rowKeep (rz : IVec S32x512 1) : FVec F S32x512x1 .f32 := shapeCast S32x512x1 (keep2 (F := F) rz) c_S32x512_S32x512x1
/-- the column factors, each repeated over the three channels, as a row per image. -/
def colKeep (cz : IVec S32x512 1) : FVec F S32x1x1536 .f32 :=
  shapeCast S32x1x1536 (shapeCast S32x1536 (broadcastInDim S32x512x3 ![0, 1] b_S32x512_S32x512x3 (keep2 (F := F) cz)) c_S32x512x3_S32x1536)
    c_S32x1536_S32x1x1536

/-- What the kernel leaves in its flattened output from the three staged operands: entry (b, h, j) is
    (X(b,h,j) · R(b,h,0)) · C(b,0,j). -/
def flatOut (X : FVec Ideal S32x512x1536 .f32) (R : FVec Ideal S32x512x1 .f32) (C : FVec Ideal S32x1x1536 .f32) :
    FVec Ideal S32x512x1536 .f32 :=
  fun i => (X i * R (ValueIdx.ix3 (i 0) (i 1) (0 : Fin 1))) * C (ValueIdx.ix3 (i 0) (0 : Fin 1) (i 2))

/-- The kernel's result from the image batch and the two stripe grids: the flattened output viewed [32,512,512,3]. -/
def kerForm (a0 : FVec Ideal S32x512x512x3 .f32) (rz cz : IVec S32x512 1) : FVec Ideal S32x512x512x3 .f32 :=
  shapeCast S32x512x512x3 (flatOut (xFlat a0) (rowKeep rz) (colKeep cz)) c_S32x512x1536_S32x512x512x3

/-! ## The two literals, and the law that joins the two sides -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- Multiplying by the row factor and then by the column factor is multiplying by the factor of "row or column":
    a factor is 0 or 1, 0 annihilates and 1 is neutral on the extended reals. -/
theorem keep_mul (x : EReal) (p q : BitVec 1) :
    (x * Scalar.select p (Ideal.ofBits .f32 0x00000000#32) (Ideal.ofBits .f32 0x3F800000#32))
        * Scalar.select q (Ideal.ofBits .f32 0x00000000#32) (Ideal.ofBits .f32 0x3F800000#32)
      = x * Scalar.select (IntOp.ori p q) (Ideal.ofBits .f32 0x00000000#32) (Ideal.ofBits .f32 0x3F800000#32) := by
  rw [ofBits_zero, ofBits_one]
  rcases BitVec.eq_zero_or_eq_one p with hp | hp <;> rcases BitVec.eq_zero_or_eq_one q with hq | hq <;> subst hp <;> subst hq <;>
    simp [Scalar.select, IntOp.ori]

end Cert.GridMask

end
-- ==== Proof.KBlocks.lean ====
/-
  The kernel's flattened output array after its 32 grid points. Point t stages image t of the merged batch
  ([1,512,1536]), image t's column of row factors ([1,512,1]) and image t's row of column factors ([1,1,1536]);
  the body stores, at (0, h, j), (x(0,h,j) · r(0,h,0)) · c(0,0,j); the block is written back as image t of the
  output. The 32 blocks tile the output, so the whole array is one function of the three staged arrays.
-/
import proofs.«172603_j25658134626696_2_alg».proof.Proof.Gen.KernelIdeal.Frame
import proofs.«172603_j25658134626696_2_alg».proof.Proof.Spec
import Idealize.ShloMosaic.Lib.Pipeline.Value
import Idealize.ShloMosaic.Lib.ValueLayout
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl

/-! ## The body's stored value at an index -/

/-- An [a,1] column spread over b lanes reads, at (p, q), the column at p. -/
theorem broadcastTo_a1_ab_apply {α : Type} {a b : ℕ} (v : (⟨2, ![a, 1]⟩ : Shape).Idx → α)
    (hb : (⟨2, ![a, 1]⟩ : Shape).Broadcasts ⟨2, ![a, b]⟩) (p : Fin a) (q : Fin b) :
    broadcastTo ⟨2, ![a, b]⟩ v hb (ix2 p q) = v (ix2 p (0 : Fin 1)) := by
  refine broadcastTo_apply v hb (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at (u, h, j): the batch block's entry times the row factor of h times the column factor of j. -/
theorem pay_apply (x0 : FVec Ideal S1x512x1536 .f32) (x1 : FVec Ideal S1x512x1 .f32) (x2 : FVec Ideal S1x1x1536 .f32)
    (u : Fin 1) (h : Fin 512) (j : Fin 1536) :
    k0_pay1 x0 x1 x2 (ix3 u h j)
      = (x0 (ix3 (0 : Fin 1) h j) * x1 (ix3 (0 : Fin 1) h (0 : Fin 1))) * x2 (ix3 (0 : Fin 1) (0 : Fin 1) j) := by
  unfold k0_pay1
  refine (shapeCast_ab_1ab_apply _ _ u h j).trans ?_
  show (shapeCast S512x1536 x0 _ (ix2 h j) * broadcastTo S512x1536 (shapeCast S512x1 x1 _) _ (ix2 h j))
      * broadcastTo S512x1536 (shapeCast S1x1536 x2 _) _ (ix2 h j) = _
  rw [shapeCast_1ab_ab_apply, broadcastTo_a1_ab_apply, shapeCast_1ab_ab_apply, broadcastTo_1b_ab_apply, shapeCast_1ab_ab_apply]

/-- The same at an index not yet split into coordinates. -/
theorem pay_at (x0 : FVec Ideal S1x512x1536 .f32) (x1 : FVec Ideal S1x512x1 .f32) (x2 : FVec Ideal S1x1x1536 .f32)
    (y : S1x512x1536.Idx) :
    k0_pay1 x0 x1 x2 y
      = (x0 (ix3 (0 : Fin 1) (y 1) (y 2)) * x1 (ix3 (0 : Fin 1) (y 1) (0 : Fin 1))) * x2 (ix3 (0 : Fin 1) (0 : Fin 1) (y 2)) := by
  obtain ⟨u, h, j, rfl⟩ : ∃ (u : Fin 1) (h : Fin 512) (j : Fin 1536), y = ix3 u h j := ⟨y 0, y 1, y 2, eq_ix3 y⟩
  exact pay_apply x0 x1 x2 u h j

/-! ## The windows' blocks -/

/-- The printed index maps over the grid: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch block at point t is image t of the merged batch. -/
theorem iblk0_apply (c : Dev nD) (t : Fin cfg0.N) (x : S1x512x1536.Idx) (k : S32x512x1536.Idx)
    (hk0 : (k 0).val = t.val) (hk1 : (k 1).val = (x 1).val) (hk2 : (k 2).val = (x 2).val) :
    (iblk m c 0 t : FVec Ideal S1x512x1536 .f32) x = (V m c main_v43 : S32x512x1536.Idx → EReal) k := by
  obtain ⟨e0, e1, e2, -⟩ := idx_facts t
  have hx0 : (x 0).val < 1 := (x 0).isLt
  unfold iblk
  rw [View.read_apply]
  refine congrArg (V m c main_v43 : S32x512x1536.Idx → EReal) (funext fun a => Fin.ext ?_)
  match a with
  | ⟨0, _⟩ => show win0_0.index t (0 : Fin 3) * 1 + 1 * (x 0).val = (k 0).val; rw [e0, hk0]; omega
  | ⟨1, _⟩ => show win0_0.index t (1 : Fin 3) * 512 + 1 * (x 1).val = (k 1).val; rw [e1, hk1]; omega
  | ⟨2, _⟩ => show win0_0.index t (2 : Fin 3) * 1536 + 1 * (x 2).val = (k 2).val; rw [e2, hk2]; omega

/-- The row-factor block at point t is image t's column. -/
theorem iblk1_apply (c : Dev nD) (t : Fin cfg0.N) (x : S1x512x1.Idx) (k : S32x512x1.Idx)
    (hk0 : (k 0).val = t.val) (hk1 : (k 1).val = (x 1).val) :
    (iblk m c 1 t : FVec Ideal S1x512x1 .f32) x = (V m c main_v39 : S32x512x1.Idx → EReal) k := by
  obtain ⟨-, -, -, e0, e1, e2, -⟩ := idx_facts t
  have hx0 : (x 0).val < 1 := (x 0).isLt
  have hx2 : (x 2).val < 1 := (x 2).isLt
  have hk2 : (k 2).val < 1 := (k 2).isLt
  unfold iblk
  rw [View.read_apply]
  refine congrArg (V m c main_v39 : S32x512x1.Idx → EReal) (funext fun a => Fin.ext ?_)
  match a with
  | ⟨0, _⟩ => show win0_1.index t (0 : Fin 3) * 1 + 1 * (x 0).val = (k 0).val; rw [e0, hk0]; omega
  | ⟨1, _⟩ => show win0_1.index t (1 : Fin 3) * 512 + 1 * (x 1).val = (k 1).val; rw [e1, hk1]; omega
  | ⟨2, _⟩ => show win0_1.index t (2 : Fin 3) * 1 + 1 * (x 2).val = (k 2).val; rw [e2]; omega

/-- The column-factor block at point t is image t's row. -/
theorem iblk2_apply (c : Dev nD) (t : Fin cfg0.N) (x : S1x1x1536.Idx) (k : S32x1x1536.Idx)
    (hk0 : (k 0).val = t.val) (hk2 : (k 2).val = (x 2).val) :
    (iblk m c 2 t : FVec Ideal S1x1x1536 .f32) x = (V m c main_v42 : S32x1x1536.Idx → EReal) k := by
  obtain ⟨-, -, -, -, -, -, e0, e1, e2, -⟩ := idx_facts t
  have hx0 : (x 0).val < 1 := (x 0).isLt
  have hx1 : (x 1).val < 1 := (x 1).isLt
  have hk1 : (k 1).val < 1 := (k 1).isLt
  unfold iblk
  rw [View.read_apply]
  refine congrArg (V m c main_v42 : S32x1x1536.Idx → EReal) (funext fun a => Fin.ext ?_)
  match a with
  | ⟨0, _⟩ => show win0_2.index t (0 : Fin 3) * 1 + 1 * (x 0).val = (k 0).val; rw [e0, hk0]; omega
  | ⟨1, _⟩ => show win0_2.index t (1 : Fin 3) * 1 + 1 * (x 1).val = (k 1).val; rw [e1]; omega
  | ⟨2, _⟩ => show win0_2.index t (2 : Fin 3) * 1536 + 1 * (x 2).val = (k 2).val; rw [e2, hk2]; omega

/-! ## What a point writes back, the cover, the array -/

/-- The flattened output as a function of the three arrays the region finds. -/
abbrev outArr (c : Dev nD) : S32x512x1536.Idx → EReal :=
  Cert.GridMask.flatOut (V m c main_v43 : S32x512x1536.Idx → EReal) (V m c main_v39 : S32x512x1.Idx → EReal)
    (V m c main_v42 : S32x1x1536.Idx → EReal)

/-- Point t writes back block t of that function. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz3]
  simp only [View.ld_unit_zero (S := S1x512x1536) hz3, View.ld_unit_zero (S := S1x512x1) hz3, View.ld_unit_zero (S := S1x1x1536) hz3]
  obtain ⟨-, -, -, -, -, -, -, -, -, e0, e1, e2⟩ := idx_facts t
  funext y
  have hy0 : (y 0).val < 1 := (y 0).isLt
  show k0_pay1 (iblk m c 0 t) (iblk m c 1 t) (iblk m c 2 t) y = outArr m c (((cfg0.win 3).blk t).view.emb y)
  refine (pay_at _ _ _ y).trans ?_
  have q0 : ((((cfg0.win 3).blk t).view.emb y) 0).val = t.val := by
    show win0_3.index t (0 : Fin 3) * 1 + 1 * (y 0).val = t.val; rw [e0]; omega
  have q1 : ((((cfg0.win 3).blk t).view.emb y) 1).val = (y 1).val := by
    show win0_3.index t (1 : Fin 3) * 512 + 1 * (y 1).val = (y 1).val; rw [e1]; omega
  have q2 : ((((cfg0.win 3).blk t).view.emb y) 2).val = (y 2).val := by
    show win0_3.index t (2 : Fin 3) * 1536 + 1 * (y 2).val = (y 2).val; rw [e2]; omega
  dsimp only [outArr, Cert.GridMask.flatOut]
  refine congrArg₂ (· * ·) (congrArg₂ (· * ·) ?_ ?_) ?_
  · exact iblk0_apply m c t _ _ q0 q1 q2
  · exact iblk1_apply m c t _ _ q0 q1
  · exact iblk2_apply m c t _ _ q0 q2

/-- An index of the output lies in point t's block iff each coordinate lies in the block's range on its axis. -/
theorem mem_blk (t : Fin cfg0.N) (i : S32x512x1536.Idx) :
    i ∈ ((cfg0.win 3).blk t).view.set ↔ ∀ a : Fin 3, win0_3.index t a * S1x512x1536.size a ≤ (i a).val
      ∧ (i a).val < win0_3.index t a * S1x512x1536.size a + S1x512x1536.size a := by
  show i ∈ ((View.whole main_v44).slice (win0_3.rect t)).set ↔ _
  rw [View.set_slice_whole, Rect.mem_set_unit]
  exact Iff.rfl

/-- Every index (b, h, j) of the output lies in point b's block. -/
theorem cover (i : S32x512x1536.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 512 := (i 1).isLt
  have hi2 : (i 2).val < 1536 := (i 2).isLt
  have ht : (i 0).val < cfg0.N := by rw [hN]; exact hi0
  refine ⟨⟨(i 0).val, ht⟩, flush0_3 _, ?_⟩
  rw [mem_blk]
  obtain ⟨-, -, -, -, -, -, -, -, -, e0, e1, e2⟩ := idx_facts ⟨(i 0).val, ht⟩
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; show (i 0).val * 1 ≤ (i 0).val ∧ (i 0).val < (i 0).val * 1 + 1; omega
  | ⟨1, _⟩ =>
    show win0_3.index ⟨(i 0).val, ht⟩ (1 : Fin 3) * 512 ≤ (i 1).val ∧ (i 1).val < win0_3.index ⟨(i 0).val, ht⟩ (1 : Fin 3) * 512 + 512
    rw [e1]; omega
  | ⟨2, _⟩ =>
    show win0_3.index ⟨(i 0).val, ht⟩ (2 : Fin 3) * 1536 ≤ (i 2).val ∧ (i 2).val < win0_3.index ⟨(i 0).val, ht⟩ (2 : Fin 3) * 1536 + 1536
    rw [e2]; omega

/-- The output array after the 32 points. -/
theorem final (c : Dev nD) : (dats m 0 c).arrAt 3 cfg0.N = outArr m c :=
  (dats m 0 c).arrAt_eq_of_cover 3 (outArr m c) (fun t _ => flushed_eq m c t) cover

end Cert.KernelIdeal.KValue

end
-- ==== Proof.LibTRef.lean ====
/-
  Typed references' transports. A value written into a typed reference's buffer and read back through the same
  reference is the value: the two transports along the reference's type equation are inverse.
-/
import Idealize.ShloMosaic.Lib.StableHlo

namespace Cert.LibTRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, hd, hu⟩ := x
  subst h
  rfl

/-- Writing through a typed reference what was read through it gives the contents read. -/
theorem toBuf_ofBuf (x : TRef sig T) (v : x.ref.ty.Contents Val) : x.toBuf (x.ofBuf v) = v := by
  obtain ⟨r, h, hd, hu⟩ := x
  subst h
  rfl

end Cert.LibTRef
-- ==== Proof.KHost.lean ====
/-
  What the kernel's region finds in its three staged arrays. Before the region the host computes, from the three
  integer vectors, the two stripe grids (the same chain of operations as the reference, the coordinates 106 + k
  spread to a row before the offset is added), turns each into 0/1 factors, lays the row factors out as a column
  per image and the column factors, each repeated over the three channels, as a row per image, and merges the batch's
  width and channel axes. Read back here as the specification's three operand functions of the launch contents: the operations' fold is unrolled,
  a value written and read back through one typed reference is itself, and what is left is the specification's term.
-/
import proofs.«172603_j25658134626696_2_alg».proof.Proof.Gen.KernelIdeal.Frame
import proofs.«172603_j25658134626696_2_alg».proof.Proof.Spec
import Idealize.ShloMosaic.Lib.StableHlo.Run
import proofs.«172603_j25658134626696_2_alg».proof.Proof.LibTRef

noncomputable section

namespace Cert.KernelIdeal.HostRead

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first staged array is the image batch with width and channels merged. -/
theorem V_x (c : Dev nD) :
    @Eq (Cert.GridMask.S32x512x1536.Idx → EReal) (V m c main_v43) (Cert.GridMask.xFlat (F := Ideal) (m ((c : Thread nD τ).loc main_arg0))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, List.flatten_cons, List.flatten_nil,
    List.append_nil, List.cons_append, List.nil_append]
  after_results_simp
  rfl

set_option maxHeartbeats 400000 in
/-- The second is the row factors, one column per image (the coordinates as the kernel's host code spells them). -/
theorem V_row_aux (c : Dev nD) :
    @Eq (Cert.GridMask.S32x512x1.Idx → EReal) (V m c main_v39)
      (Cert.GridMask.rowKeep (F := Ideal) (Cert.GridMask.stripeOver (F := Ideal) Cert.GridMask.coordsRow
        (m ((c : Thread nD τ).loc main_arg1)) (m ((c : Thread nD τ).loc main_arg2)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, List.flatten_cons, List.flatten_nil,
    List.append_nil, List.cons_append, List.nil_append]
  after_results_simp
  simp only [Cert.LibTRef.ofBuf_toBuf]
  simp only [Cert.GridMask.rowKeep, Cert.GridMask.colKeep, Cert.GridMask.keep2, Cert.GridMask.stripeOver, Cert.GridMask.coordsRow,
    Cert.GridMask.floorRem2, Cert.GridMask.floorRem1, Cert.GridMask.width, Cert.GridMask.period]
  rfl

set_option maxHeartbeats 400000 in
/-- The third is the column factors, each repeated over the channels, one row per image. -/
theorem V_col_aux (c : Dev nD) :
    @Eq (Cert.GridMask.S32x1x1536.Idx → EReal) (V m c main_v42)
      (Cert.GridMask.colKeep (F := Ideal) (Cert.GridMask.stripeOver (F := Ideal) Cert.GridMask.coordsRow
        (m ((c : Thread nD τ).loc main_arg1)) (m ((c : Thread nD τ).loc main_arg3)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, List.flatten_cons, List.flatten_nil,
    List.append_nil, List.cons_append, List.nil_append]
  after_results_simp
  simp only [Cert.LibTRef.ofBuf_toBuf]
  simp only [Cert.GridMask.rowKeep, Cert.GridMask.colKeep, Cert.GridMask.keep2, Cert.GridMask.stripeOver, Cert.GridMask.coordsRow,
    Cert.GridMask.floorRem2, Cert.GridMask.floorRem1, Cert.GridMask.width, Cert.GridMask.period]
  rfl

/-- The row factors over the specification's coordinate grid. -/
theorem V_row (c : Dev nD) :
    @Eq (Cert.GridMask.S32x512x1.Idx → EReal) (V m c main_v39)
      (Cert.GridMask.rowKeep (F := Ideal) (Cert.GridMask.stripe (F := Ideal) (m ((c : Thread nD τ).loc main_arg1)) (m ((c : Thread nD τ).loc main_arg2)))) := by
  have h := V_row_aux m c
  rw [Cert.GridMask.coordsRow_eq] at h
  exact h

/-- The column factors over the specification's coordinate grid. -/
theorem V_col (c : Dev nD) :
    @Eq (Cert.GridMask.S32x1x1536.Idx → EReal) (V m c main_v42)
      (Cert.GridMask.colKeep (F := Ideal) (Cert.GridMask.stripe (F := Ideal) (m ((c : Thread nD τ).loc main_arg1)) (m ((c : Thread nD τ).loc main_arg3)))) := by
  have h := V_col_aux m c
  rw [Cert.GridMask.coordsRow_eq] at h
  exact h

end Cert.KernelIdeal.HostRead

end
-- ==== Proof.KRun.lean ====
/-
  The kernel program's run, read. After the region the host views the flattened output [32,512,1536] as
  [32,512,512,3]; with the region's three staged arrays read back as functions of the launch contents, the result
  buffer ends at the specification's kernel form of the image batch and the two stripe grids, and no operation writes
  an argument buffer.
-/
import proofs.«172603_j25658134626696_2_alg».proof.Proof.KBlocks
import proofs.«172603_j25658134626696_2_alg».proof.Proof.KHost
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The two stripe grids of the launch contents on core c. -/
abbrev rowStripes (c : Dev nD) : IVec Cert.GridMask.S32x512 1 :=
  Cert.GridMask.stripe (F := Ideal) (m ((c : Thread nD τ).loc main_arg1)) (m ((c : Thread nD τ).loc main_arg2))
abbrev colStripes (c : Dev nD) : IVec Cert.GridMask.S32x512 1 :=
  Cert.GridMask.stripe (F := Ideal) (m ((c : Thread nD τ).loc main_arg1)) (m ((c : Thread nD τ).loc main_arg3))

/-- The flattened output as a function of the launch contents. -/
theorem outArr_eq (c : Dev nD) :
    outArr m c = Cert.GridMask.flatOut (Cert.GridMask.xFlat (F := Ideal) (m ((c : Thread nD τ).loc main_arg0)))
      (Cert.GridMask.rowKeep (F := Ideal) (rowStripes m c)) (Cert.GridMask.colKeep (F := Ideal) (colStripes m c)) :=
  congr (congr (congrArg Cert.GridMask.flatOut (HostRead.V_x m c)) (HostRead.V_row m c)) (HostRead.V_col m c)

/-- The output window's array, as the host lines after the region find it. -/
theorem tail_arr (c : Dev nD) :
    Pipeline.withArrays spec0 c (V0 m c) (fun w => (dats m 0 c).arrAt w cfg0.N) (Proc.devRef .tc main_v44) = outArr m c :=
  (Pipeline.withArrays_arr spec0 launch0.win.arr_inj c _ _ 3).trans (final m c)

/-- After the frame run the result buffer is the flattened output viewed [32,512,512,3]. -/
theorem result_eq (r : PUnit × MemSt nD τ sig (Elt Ideal))
    (h : Pipeline.FramePost cfgs (dats m) 0 (Pipeline.afterTail₀ cfgs (dats m) 0 (V0 m) [hostOps1]) r) (c : Dev nD) :
    @Eq (Cert.GridMask.S32x512x512x3.Idx → EReal) (r.2.mem ((c : Thread nD τ).loc main_v45))
      (Cert.GridMask.kerForm (m ((c : Thread nD τ).loc main_arg0)) (rowStripes m c) (colStripes m c)) := by
  refine ((h c).2 main_v45 (Pipeline.mem_restRefs_of main_v45 (by decide) (by decide))).trans ?_
  unfold Pipeline.afterTail₀
  show StableHlo.after hostOps1 _ (Proc.devRef .tc main_v45) = _
  after_results
  exact congrArg (fun A : Cert.GridMask.S32x512x1536.Idx → EReal =>
      shapeCast Cert.GridMask.S32x512x512x3 A Cert.GridMask.c_S32x512x1536_S32x512x512x3)
    ((tail_arr m c).trans (outArr_eq m c))

/-- The kernel's run with its result named and its arguments kept. -/
theorem run : θ_run defs (onTc (τ := τ) (main (F := Ideal))) ⟨m, fun _ => 0, ρ⟩ fun r => ∀ c : Dev nD,
      @Eq (Cert.GridMask.S32x512x512x3.Idx → EReal) (r.2.mem ((c : Thread nD τ).loc main_v45))
        (Cert.GridMask.kerForm (m ((c : Thread nD τ).loc main_arg0)) (rowStripes m c) (colStripes m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefRun.lean ====
/-
  The reference program's run, read back. Its entry function is a straight line of host operations once the
  helper functions it calls (two signed floor-remainders on 32 stripe phases, two on the 32x512 coordinate grids,
  one three-way select) are written out at their call sites over each call's own buffers: 135 operations in all.
  Every fair execution therefore terminates with each buffer holding the operations' fold over the launch
  contents.
-/
import proofs.«172603_j25658134626696_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in program order, each call's body in place of the call. -/
abbrev ops : List (HloOp τ sig (Elt F)) :=
  [ nullary main_c (constantI S_ 32 96#32),
    unary main_c main_v0 (broadcastInDim S32 ![] bcast_S_S32),
    binary main_v0 main_arg1 main_v1 addi,
    unary main_v1 main_v2 (sitofp .f32),
    nullary main_cst (constant S_ .f32 0x3F000000#32),
    unary main_cst main_v3 (broadcastInDim S32 ![] bcast_S_S32),
    binary main_v2 main_v3 main_v4 mulf,
    unary main_v4 main_v5 Host.ceil,
    unary main_v5 main_v6 (fptosi 32),
    TRef.nullary main_call0.c (constantI S_ 32 0#32),
    TRef.unary main_call0.c main_call0.v0 (broadcastInDim S32 ![] bcast_S_S32),
    TRef.binary (.of main_v1 : TRef sig ⟨S32, .i32⟩) main_call0.v0 main_call0.v1 (cmpi .eq),
    TRef.nullary main_call0.c_0 (constantI S_ 32 1#32),
    TRef.unary main_call0.c_0 main_call0.v2 (broadcastInDim S32 ![] bcast_S_S32),
    TRef.ternary main_call0.v1 main_call0.v2 (.of main_v1 : TRef sig ⟨S32, .i32⟩) main_call0.call0.v0 select,
    TRef.binary (.of main_arg2 : TRef sig ⟨S32, .i32⟩) main_call0.call0.v0 main_call0.v4 Host.remsi,
    TRef.nullary main_call0.c_1 (constantI S_ 32 0#32),
    TRef.unary main_call0.c_1 main_call0.v5 (broadcastInDim S32 ![] bcast_S_S32),
    TRef.binary main_call0.v4 main_call0.v5 main_call0.v6 (cmpi .ne),
    TRef.nullary main_call0.c_2 (constantI S_ 32 0#32),
    TRef.unary main_call0.c_2 main_call0.v7 (broadcastInDim S32 ![] bcast_S_S32),
    TRef.binary main_call0.v4 main_call0.v7 main_call0.v8 (cmpi .slt),
    TRef.nullary main_call0.c_3 (constantI S_ 32 0#32),
    TRef.unary main_call0.c_3 main_call0.v9 (broadcastInDim S32 ![] bcast_S_S32),
    TRef.binary main_call0.call0.v0 main_call0.v9 main_call0.v10 (cmpi .slt),
    TRef.binary main_call0.v8 main_call0.v10 main_call0.v11 (cmpi .ne),
    TRef.binary main_call0.v11 main_call0.v6 main_call0.v12 andi,
    TRef.binary main_call0.v4 main_call0.call0.v0 main_call0.v13 addi,
    TRef.ternary main_call0.v12 main_call0.v13 main_call0.v4 main_call0.v14 select,
    TRef.nullary main_call1.c (constantI S_ 32 0#32),
    TRef.unary main_call1.c main_call1.v0 (broadcastInDim S32 ![] bcast_S_S32),
    TRef.binary (.of main_v1 : TRef sig ⟨S32, .i32⟩) main_call1.v0 main_call1.v1 (cmpi .eq),
    TRef.nullary main_call1.c_0 (constantI S_ 32 1#32),
    TRef.unary main_call1.c_0 main_call1.v2 (broadcastInDim S32 ![] bcast_S_S32),
    TRef.ternary main_call1.v1 main_call1.v2 (.of main_v1 : TRef sig ⟨S32, .i32⟩) main_call1.call0.v0 select,
    TRef.binary (.of main_arg3 : TRef sig ⟨S32, .i32⟩) main_call1.call0.v0 main_call1.v4 Host.remsi,
    TRef.nullary main_call1.c_1 (constantI S_ 32 0#32),
    TRef.unary main_call1.c_1 main_call1.v5 (broadcastInDim S32 ![] bcast_S_S32),
    TRef.binary main_call1.v4 main_call1.v5 main_call1.v6 (cmpi .ne),
    TRef.nullary main_call1.c_2 (constantI S_ 32 0#32),
    TRef.unary main_call1.c_2 main_call1.v7 (broadcastInDim S32 ![] bcast_S_S32),
    TRef.binary main_call1.v4 main_call1.v7 main_call1.v8 (cmpi .slt),
    TRef.nullary main_call1.c_3 (constantI S_ 32 0#32),
    TRef.unary main_call1.c_3 main_call1.v9 (broadcastInDim S32 ![] bcast_S_S32),
    TRef.binary main_call1.call0.v0 main_call1.v9 main_call1.v10 (cmpi .slt),
    TRef.binary main_call1.v8 main_call1.v10 main_call1.v11 (cmpi .ne),
    TRef.binary main_call1.v11 main_call1.v6 main_call1.v12 andi,
    TRef.binary main_call1.v4 main_call1.call0.v0 main_call1.v13 addi,
    TRef.ternary main_call1.v12 main_call1.v13 main_call1.v4 main_call1.v14 select,
    nullary main_v9 (iotaInDim S512 32 0),
    nullary main_c_0 (constantI S_ 32 106#32),
    unary main_c_0 main_v10 (broadcastInDim S512 ![] bcast_S_S512),
    binary main_v10 main_v9 main_v11 addi,
    nullary main_v12 (iotaInDim S512 32 0),
    nullary main_c_1 (constantI S_ 32 106#32),
    unary main_c_1 main_v13 (broadcastInDim S512 ![] bcast_S_S512),
    binary main_v13 main_v12 main_v14 addi,
    unary main_v11 main_v15 (broadcastInDim S1x512 ![1] bcast_S512_S1x512_1),
    unary main_v7 main_v16 (broadcastInDim S32x1 ![0] bcast_S32_S32x1_0),
    unary main_v15 main_v17 (broadcastInDim S32x512 ![0, 1] bcast_S1x512_S32x512_0_1),
    unary main_v16 main_v18 (broadcastInDim S32x512 ![0, 1] bcast_S32x1_S32x512_0_1),
    binary main_v17 main_v18 main_v19 subi,
    unary main_v1 main_v20 (broadcastInDim S32x1 ![0] bcast_S32_S32x1_0),
    TRef.nullary main_call2.c (constantI S_ 32 0#32),
    TRef.unary main_call2.c main_call2.v0 (broadcastInDim S32x1 ![] bcast_S_S32x1),
    TRef.binary (.of main_v20 : TRef sig ⟨S32x1, .i32⟩) main_call2.v0 main_call2.v1 (cmpi .eq),
    TRef.nullary main_call2.c_0 (constantI S_ 32 1#32),
    TRef.unary main_call2.c_0 main_call2.v2 (broadcastInDim S32x1 ![] bcast_S_S32x1),
    TRef.ternary main_call2.v1 main_call2.v2 (.of main_v20 : TRef sig ⟨S32x1, .i32⟩) main_call2.call0.v0 select,
    TRef.unary main_call2.call0.v0 main_call2.v4 (broadcastInDim S32x512 ![0, 1] bcast_S32x1_S32x512_0_1),
    TRef.binary (.of main_v19 : TRef sig ⟨S32x512, .i32⟩) main_call2.v4 main_call2.v5 Host.remsi,
    TRef.nullary main_call2.c_1 (constantI S_ 32 0#32),
    TRef.unary main_call2.c_1 main_call2.v6 (broadcastInDim S32x512 ![] bcast_S_S32x512),
    TRef.binary main_call2.v5 main_call2.v6 main_call2.v7 (cmpi .ne),
    TRef.nullary main_call2.c_2 (constantI S_ 32 0#32),
    TRef.unary main_call2.c_2 main_call2.v8 (broadcastInDim S32x512 ![] bcast_S_S32x512),
    TRef.binary main_call2.v5 main_call2.v8 main_call2.v9 (cmpi .slt),
    TRef.nullary main_call2.c_3 (constantI S_ 32 0#32),
    TRef.unary main_call2.c_3 main_call2.v10 (broadcastInDim S32x1 ![] bcast_S_S32x1),
    TRef.binary main_call2.call0.v0 main_call2.v10 main_call2.v11 (cmpi .slt),
    TRef.unary main_call2.v11 main_call2.v12 (broadcastInDim S32x512 ![0, 1] bcast_S32x1_S32x512_0_1),
    TRef.binary main_call2.v9 main_call2.v12 main_call2.v13 (cmpi .ne),
    TRef.binary main_call2.v13 main_call2.v7 main_call2.v14 andi,
    TRef.unary main_call2.call0.v0 main_call2.v15 (broadcastInDim S32x512 ![0, 1] bcast_S32x1_S32x512_0_1),
    TRef.binary main_call2.v5 main_call2.v15 main_call2.v16 addi,
    TRef.ternary main_call2.v14 main_call2.v16 main_call2.v5 main_call2.v17 select,
    unary main_v6 main_v22 (broadcastInDim S32x1 ![0] bcast_S32_S32x1_0),
    unary main_v22 main_v23 (broadcastInDim S32x512 ![0, 1] bcast_S32x1_S32x512_0_1),
    binary main_v21 main_v23 main_v24 (cmpi .slt),
    unary main_v14 main_v25 (broadcastInDim S1x512 ![1] bcast_S512_S1x512_1),
    unary main_v8 main_v26 (broadcastInDim S32x1 ![0] bcast_S32_S32x1_0),
    unary main_v25 main_v27 (broadcastInDim S32x512 ![0, 1] bcast_S1x512_S32x512_0_1),
    unary main_v26 main_v28 (broadcastInDim S32x512 ![0, 1] bcast_S32x1_S32x512_0_1),
    binary main_v27 main_v28 main_v29 subi,
    unary main_v1 main_v30 (broadcastInDim S32x1 ![0] bcast_S32_S32x1_0),
    TRef.nullary main_call3.c (constantI S_ 32 0#32),
    TRef.unary main_call3.c main_call3.v0 (broadcastInDim S32x1 ![] bcast_S_S32x1),
    TRef.binary (.of main_v30 : TRef sig ⟨S32x1, .i32⟩) main_call3.v0 main_call3.v1 (cmpi .eq),
    TRef.nullary main_call3.c_0 (constantI S_ 32 1#32),
    TRef.unary main_call3.c_0 main_call3.v2 (broadcastInDim S32x1 ![] bcast_S_S32x1),
    TRef.ternary main_call3.v1 main_call3.v2 (.of main_v30 : TRef sig ⟨S32x1, .i32⟩) main_call3.call0.v0 select,
    TRef.unary main_call3.call0.v0 main_call3.v4 (broadcastInDim S32x512 ![0, 1] bcast_S32x1_S32x512_0_1),
    TRef.binary (.of main_v29 : TRef sig ⟨S32x512, .i32⟩) main_call3.v4 main_call3.v5 Host.remsi,
    TRef.nullary main_call3.c_1 (constantI S_ 32 0#32),
    TRef.unary main_call3.c_1 main_call3.v6 (broadcastInDim S32x512 ![] bcast_S_S32x512),
    TRef.binary main_call3.v5 main_call3.v6 main_call3.v7 (cmpi .ne),
    TRef.nullary main_call3.c_2 (constantI S_ 32 0#32),
    TRef.unary main_call3.c_2 main_call3.v8 (broadcastInDim S32x512 ![] bcast_S_S32x512),
    TRef.binary main_call3.v5 main_call3.v8 main_call3.v9 (cmpi .slt),
    TRef.nullary main_call3.c_3 (constantI S_ 32 0#32),
    TRef.unary main_call3.c_3 main_call3.v10 (broadcastInDim S32x1 ![] bcast_S_S32x1),
    TRef.binary main_call3.call0.v0 main_call3.v10 main_call3.v11 (cmpi .slt),
    TRef.unary main_call3.v11 main_call3.v12 (broadcastInDim S32x512 ![0, 1] bcast_S32x1_S32x512_0_1),
    TRef.binary main_call3.v9 main_call3.v12 main_call3.v13 (cmpi .ne),
    TRef.binary main_call3.v13 main_call3.v7 main_call3.v14 andi,
    TRef.unary main_call3.call0.v0 main_call3.v15 (broadcastInDim S32x512 ![0, 1] bcast_S32x1_S32x512_0_1),
    TRef.binary main_call3.v5 main_call3.v15 main_call3.v16 addi,
    TRef.ternary main_call3.v14 main_call3.v16 main_call3.v5 main_call3.v17 select,
    unary main_v6 main_v32 (broadcastInDim S32x1 ![0] bcast_S32_S32x1_0),
    unary main_v32 main_v33 (broadcastInDim S32x512 ![0, 1] bcast_S32x1_S32x512_0_1),
    binary main_v31 main_v33 main_v34 (cmpi .slt),
    unary main_v24 main_v35 (broadcastInDim S32x512x1 ![0, 1] bcast_S32x512_S32x512x1_0_1),
    unary main_v34 main_v36 (broadcastInDim S32x1x512 ![0, 2] bcast_S32x512_S32x1x512_0_2),
    unary main_v35 main_v37 (broadcastInDim S32x512x512 ![0, 1, 2] bcast_S32x512x1_S32x512x512_0_1_2),
    unary main_v36 main_v38 (broadcastInDim S32x512x512 ![0, 1, 2] bcast_S32x1x512_S32x512x512_0_1_2),
    binary main_v37 main_v38 main_v39 ori,
    nullary main_cst_2 (constant S_ .f32 0x00000000#32),
    nullary main_cst_3 (constant S_ .f32 0x3F800000#32),
    TRef.unary (.of main_cst_2 : TRef sig ⟨S_, .f32⟩) main_call4.v0 (broadcastInDim S32x512x512 ![] bcast_S_S32x512x512),
    TRef.unary (.of main_cst_3 : TRef sig ⟨S_, .f32⟩) main_call4.v1 (broadcastInDim S32x512x512 ![] bcast_S_S32x512x512),
    TRef.ternary (.of main_v39 : TRef sig ⟨S32x512x512, .i1⟩) main_call4.v0 main_call4.v1 main_call4.v2 select,
    unary main_v40 main_v41 id,
    unary main_v41 main_v42 (broadcastInDim S32x512x512x1 ![0, 1, 2] bcast_S32x512x512_S32x512x512x1_0_1_2),
    unary main_v42 main_v43 (broadcastInDim S32x512x512x3 ![0, 1, 2, 3] bcast_S32x512x512x1_S32x512x512x3_0_1_2_3),
    binary main_arg0 main_v43 main_v44 mulf ]

set_option maxRecDepth 4096 in
/-- The entry function is that list run in order: the helper functions unfolded at their calls, the two sides are one
    chain of steps once sequencing is re-associated. -/
theorem main_eq (c : Dev nD) : main (F := F) c = seq ops := by
  simp only [main, fn_remainder.body, fn_remainder_0.body, fn_where.body, fn_where_1.body, fn_where_2.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., unary_bufs_sub .., unary_bufs_sub .., nullary_bufs_sub .., unary_bufs_sub .., binary_bufs_sub ..,
    nullary_bufs_sub .., unary_bufs_sub .., ternary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., binary_bufs_sub .., binary_bufs_sub .., ternary_bufs_sub .., nullary_bufs_sub ..,
    unary_bufs_sub .., binary_bufs_sub .., nullary_bufs_sub .., unary_bufs_sub .., ternary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    ternary_bufs_sub .., nullary_bufs_sub .., nullary_bufs_sub .., unary_bufs_sub .., binary_bufs_sub .., nullary_bufs_sub ..,
    nullary_bufs_sub .., unary_bufs_sub .., binary_bufs_sub .., unary_bufs_sub .., unary_bufs_sub .., unary_bufs_sub ..,
    unary_bufs_sub .., binary_bufs_sub .., unary_bufs_sub .., nullary_bufs_sub .., unary_bufs_sub .., binary_bufs_sub ..,
    nullary_bufs_sub .., unary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., ternary_bufs_sub .., unary_bufs_sub .., unary_bufs_sub .., binary_bufs_sub .., unary_bufs_sub ..,
    unary_bufs_sub .., unary_bufs_sub .., unary_bufs_sub .., binary_bufs_sub .., unary_bufs_sub .., nullary_bufs_sub ..,
    unary_bufs_sub .., binary_bufs_sub .., nullary_bufs_sub .., unary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., binary_bufs_sub ..,
    binary_bufs_sub .., unary_bufs_sub .., binary_bufs_sub .., ternary_bufs_sub .., unary_bufs_sub .., unary_bufs_sub ..,
    binary_bufs_sub .., unary_bufs_sub .., unary_bufs_sub .., unary_bufs_sub .., unary_bufs_sub .., binary_bufs_sub ..,
    nullary_bufs_sub .., nullary_bufs_sub .., unary_bufs_sub .., unary_bufs_sub .., ternary_bufs_sub .., unary_bufs_sub ..,
    unary_bufs_sub .., unary_bufs_sub .., binary_bufs_sub ..⟩

/-- No operation allocates. -/
theorem ops_fresh : ∀ op ∈ (ops : List (HloOp τ sig (Elt F))), op.fresh = ∅ := by
  have h : (ops : List (HloOp τ sig (Elt F))).Forall fun op => op.fresh = ∅ := by
    simp only [List.Forall]; repeat' constructor
  exact List.forall_iff_forall_mem.mp h

/-- From any memory with zero counters every weakly fair execution of the entry function terminates, and each
    TensorCore buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
/-
  What the reference leaves in its result buffer, read off its run: the fold of its 135 operations at the result is
  the specification's reference form of the image batch and the two stripe grids of the launch contents; its four
  argument buffers are written by no operation.
-/
import proofs.«172603_j25658134626696_2_alg».proof.Proof.RefRun
import proofs.«172603_j25658134626696_2_alg».proof.Proof.Spec
import proofs.«172603_j25658134626696_2_alg».proof.Proof.LibTRef

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 400000 in
/-- The result buffer after the operations. -/
theorem out_eq (V : Valuation τ sig (Elt Ideal)) :
    @Eq (Cert.GridMask.S32x512x512x3.Idx → EReal) (after ops V (main_v44 : DevRef τ sig))
      (Cert.GridMask.refForm (F := Ideal) (V (main_arg0 : DevRef τ sig))
        (Cert.GridMask.stripe (F := Ideal) (V (main_arg1 : DevRef τ sig)) (V (main_arg2 : DevRef τ sig)))
        (Cert.GridMask.stripe (F := Ideal) (V (main_arg1 : DevRef τ sig)) (V (main_arg3 : DevRef τ sig)))) := by
  after_results_simp
  simp only [Cert.LibTRef.ofBuf_toBuf]
  simp only [Cert.GridMask.refForm, Cert.GridMask.stripe, Cert.GridMask.stripeOver, Cert.GridMask.coords, Cert.GridMask.floorRem2,
    Cert.GridMask.floorRem1, Cert.GridMask.width, Cert.GridMask.period]
  rfl

theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp
theorem arg3_eq (V : Valuation τ sig (Elt Ideal)) : after ops V (main_arg3 : DevRef τ sig) = V (main_arg3 : DevRef τ sig) := by
  after_results_simp

/-- The reference's run with its result named and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      @Eq (Cert.GridMask.S32x512x512x3.Idx → EReal) (r.2.mem ((c.tc : Thread nD τ).loc main_v44))
        (Cert.GridMask.refForm (F := Ideal) (m ((c.tc : Thread nD τ).loc main_arg0))
          (Cert.GridMask.stripe (F := Ideal) (m ((c.tc : Thread nD τ).loc main_arg1)) (m ((c.tc : Thread nD τ).loc main_arg2)))
          (Cert.GridMask.stripe (F := Ideal) (m ((c.tc : Thread nD τ).loc main_arg1)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v44).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefRun

end
-- ==== Proof.Bridge.lean ====
/-
  The two whole-array forms agree. At (b, h, w, c) the kernel's form reads its flattened output at (b, h, 3w + c):
  the merged batch there is x(b,h,w,c), the row factor is sel(rz(b,h)), the column factor, repeated over the
  channels and flattened, is sel(cz(b,w)). The reference's form reads x(b,h,w,c) · sel(rz(b,h) ∨ cz(b,w)).
  The law `keep_mul` joins them; no finiteness is used.
-/
import proofs.«172603_j25658134626696_2_alg».proof.Proof.Spec
import Idealize.ShloMosaic.Lib.Pipeline.Value
import Idealize.ShloMosaic.Lib.ValueLayout

noncomputable section

namespace Cert.GridMask

open Idealize.ShloMosaic Idealize.ShloMosaic.ValueIdx

/-- A factor grid at (b, k): 0 where the flag is set, 1 elsewhere. -/
theorem keep2_apply (z : IVec S32x512 1) (b : Fin 32) (k : Fin 512) :
    keep2 (F := Ideal) z (ix2 b k)
      = Scalar.select (z (ix2 b k)) (Ideal.ofBits .f32 0x00000000#32) (Ideal.ofBits .f32 0x3F800000#32) := rfl

/-- The merged batch at (b, h, 3w + c) is the batch at (b, h, w, c). -/
theorem xFlat_apply (a0 : FVec Ideal S32x512x512x3 .f32) (b : Fin 32) (h w : Fin 512) (c : Fin 3) (j : Fin 1536)
    (hj : j.val = 3 * w.val + c.val) : xFlat a0 (ix3 b h j) = a0 (ix4 b h w c) :=
  shapeCast_apply a0 _ (ix3 b h j) (ix4 b h w c) (by
    rw [Shape.rowMajor_val_four, Shape.rowMajor_val_three]
    show ((b.val * 512 + h.val) * 512 + w.val) * 3 + c.val = (b.val * 512 + h.val) * 1536 + j.val
    omega)

/-- The column of row factors at (b, h, ·) is the factor of (b, h). -/
theorem rowKeep_apply (rz : IVec S32x512 1) (b : Fin 32) (h : Fin 512) (u : Fin 1) :
    rowKeep (F := Ideal) rz (ix3 b h u) = keep2 (F := Ideal) rz (ix2 b h) :=
  shapeCast_apply _ _ (ix3 b h u) (ix2 b h) (by
    have hu : u.val = 0 := by omega
    rw [Shape.rowMajor_val_two, Shape.rowMajor_val_three]
    show b.val * 512 + h.val = (b.val * 512 + h.val) * 1 + u.val
    omega)

/-- The row of column factors at (b, ·, 3w + c) is the factor of (b, w). -/
theorem colKeep_apply (cz : IVec S32x512 1) (b : Fin 32) (u : Fin 1) (w : Fin 512) (c : Fin 3) (j : Fin 1536)
    (hj : j.val = 3 * w.val + c.val) : colKeep (F := Ideal) cz (ix3 b u j) = keep2 (F := Ideal) cz (ix2 b w) := by
  unfold colKeep
  refine (shapeCast_apply _ _ (ix3 b u j) (ix2 b j) (by
    have hu : u.val = 0 := by omega
    rw [Shape.rowMajor_val_two, Shape.rowMajor_val_three]
    show b.val * 1536 + j.val = (b.val * 1 + u.val) * 1536 + j.val
    omega)).trans ?_
  refine (shapeCast_apply _ _ (ix2 b j) (ix3 b w c) (by
    rw [Shape.rowMajor_val_three, Shape.rowMajor_val_two]
    show (b.val * 512 + w.val) * 3 + c.val = b.val * 1536 + j.val
    omega)).trans ?_
  exact broadcastInDim_apply _ _ _ (ix3 b w c) (ix2 b w) fun a => by
    match a with
    | ⟨0, _⟩ => rfl
    | ⟨1, _⟩ => rfl

/-- The kernel's form at (b, h, w, c). -/
theorem kerForm_apply (a0 : FVec Ideal S32x512x512x3 .f32) (rz cz : IVec S32x512 1) (b : Fin 32) (h w : Fin 512) (c : Fin 3) :
    kerForm a0 rz cz (ix4 b h w c)
      = (a0 (ix4 b h w c) * Scalar.select (rz (ix2 b h)) (Ideal.ofBits .f32 0x00000000#32) (Ideal.ofBits .f32 0x3F800000#32))
          * Scalar.select (cz (ix2 b w)) (Ideal.ofBits .f32 0x00000000#32) (Ideal.ofBits .f32 0x3F800000#32) := by
  have hlt : 3 * w.val + c.val < 1536 := by omega
  unfold kerForm
  refine (shapeCast_apply _ _ (ix4 b h w c) (ix3 b h (⟨3 * w.val + c.val, hlt⟩ : Fin 1536)) (by
    rw [Shape.rowMajor_val_three, Shape.rowMajor_val_four]
    show (b.val * 512 + h.val) * 1536 + (3 * w.val + c.val) = ((b.val * 512 + h.val) * 512 + w.val) * 3 + c.val
    omega)).trans ?_
  show (xFlat a0 (ix3 b h ⟨3 * w.val + c.val, hlt⟩) * rowKeep (F := Ideal) rz (ix3 b h (0 : Fin 1)))
      * colKeep (F := Ideal) cz (ix3 b (0 : Fin 1) ⟨3 * w.val + c.val, hlt⟩) = _
  rw [xFlat_apply a0 b h w c _ rfl, rowKeep_apply, colKeep_apply cz b 0 w c _ rfl, keep2_apply, keep2_apply]

/-- The reference's form at (b, h, w, c). -/
theorem refForm_apply (a0 : FVec Ideal S32x512x512x3 .f32) (rz cz : IVec S32x512 1) (b : Fin 32) (h w : Fin 512) (c : Fin 3) :
    refForm (F := Ideal) a0 rz cz (ix4 b h w c)
      = a0 (ix4 b h w c) * Scalar.select (IntOp.ori (rz (ix2 b h)) (cz (ix2 b w)))
          (Ideal.ofBits .f32 0x00000000#32) (Ideal.ofBits .f32 0x3F800000#32) := by
  have hA : broadcastInDim S32x512x512 ![0, 1, 2] b_S32x512x1_S32x512x512 (broadcastInDim S32x512x1 ![0, 1] b_S32x512_S32x512x1 rz) (ix3 b h w)
      = rz (ix2 b h) :=
    (broadcastInDim_apply _ _ _ (ix3 b h w) (ix3 b h (0 : Fin 1)) fun a => by
      match a with
      | ⟨0, _⟩ => rfl
      | ⟨1, _⟩ => rfl
      | ⟨2, _⟩ => rfl).trans
    (broadcastInDim_apply _ _ _ (ix3 b h (0 : Fin 1)) (ix2 b h) fun a => by
      match a with
      | ⟨0, _⟩ => rfl
      | ⟨1, _⟩ => rfl)
  have hB : broadcastInDim S32x512x512 ![0, 1, 2] b_S32x1x512_S32x512x512 (broadcastInDim S32x1x512 ![0, 2] b_S32x512_S32x1x512 cz) (ix3 b h w)
      = cz (ix2 b w) :=
    (broadcastInDim_apply _ _ _ (ix3 b h w) (ix3 b (0 : Fin 1) w) fun a => by
      match a with
      | ⟨0, _⟩ => rfl
      | ⟨1, _⟩ => rfl
      | ⟨2, _⟩ => rfl).trans
    (broadcastInDim_apply _ _ _ (ix3 b (0 : Fin 1) w) (ix2 b w) fun a => by
      match a with
      | ⟨0, _⟩ => rfl
      | ⟨1, _⟩ => rfl)
  unfold refForm
  refine congrArg (a0 (ix4 b h w c) * ·) ?_
  refine (broadcastInDim_apply _ _ _ (ix4 b h w c) (ix4 b h w (0 : Fin 1)) fun a => by
    match a with
    | ⟨0, _⟩ => rfl
    | ⟨1, _⟩ => rfl
    | ⟨2, _⟩ => rfl
    | ⟨3, _⟩ => rfl).trans ?_
  refine (broadcastInDim_apply _ _ _ (ix4 b h w (0 : Fin 1)) (ix3 b h w) fun a => by
    match a with
    | ⟨0, _⟩ => rfl
    | ⟨1, _⟩ => rfl
    | ⟨2, _⟩ => rfl).trans ?_
  show Scalar.select (IntOp.ori
      (broadcastInDim S32x512x512 ![0, 1, 2] b_S32x512x1_S32x512x512 (broadcastInDim S32x512x1 ![0, 1] b_S32x512_S32x512x1 rz) (ix3 b h w))
      (broadcastInDim S32x512x512 ![0, 1, 2] b_S32x1x512_S32x512x512 (broadcastInDim S32x1x512 ![0, 2] b_S32x512_S32x1x512 cz) (ix3 b h w)))
    (Ideal.ofBits .f32 0x00000000#32) (Ideal.ofBits .f32 0x3F800000#32) = _
  rw [hA, hB]

/-- The kernel's form is the reference's form. -/
theorem kerForm_eq_refForm (a0 : FVec Ideal S32x512x512x3 .f32) (rz cz : IVec S32x512 1) :
    kerForm a0 rz cz = refForm (F := Ideal) a0 rz cz := by
  funext i
  obtain ⟨b, h, w, c, rfl⟩ : ∃ (b : Fin 32) (h w : Fin 512) (c : Fin 3), i = ix4 b h w c := ⟨i 0, i 1, i 2, i 3, eq_ix4 i⟩
  rw [kerForm_apply, refForm_apply]
  exact keep_mul _ _ _

end Cert.GridMask

end
-- ==== Proof.lean ====
/-
  The five claims about the stripe-mask kernel and its reference.

  Both programs build, from three vectors of 32 integers, two 32x512 grids of flags (which rows and which columns of
  each image lie in a stripe: `Cert.GridMask.stripe`) and multiply the image batch by 0 where a flag is set and by 1
  elsewhere. The reference takes "row or column" first and multiplies once; the kernel multiplies by the row factor and
  then by the column factor, on images flattened to [32,512,1536], 32 grid points of one image each, and views the
  result [32,512,512,3] again. The two results are one function of the inputs (Proof/Bridge.lean): on the extended
  reals 0 annihilates and 1 is neutral, so the precondition's finiteness is never used. The frames of the two kernel
  programs are the generated frame certificates; the reference's frame is its run with the result dropped; the
  idealization rewrote nothing, so `preserves` is trivial.
-/
import proofs.«172603_j25658134626696_2_alg».proof.Defs
import proofs.«172603_j25658134626696_2_alg».proof.Proof.Gen.Kernel
import proofs.«172603_j25658134626696_2_alg».proof.Proof.Gen.Kernel.Frame
import proofs.«172603_j25658134626696_2_alg».proof.Proof.Gen.KernelIdeal
import proofs.«172603_j25658134626696_2_alg».proof.Proof.Gen.KernelIdeal.Frame
import proofs.«172603_j25658134626696_2_alg».proof.Proof.Gen.ReferenceIdeal
import proofs.«172603_j25658134626696_2_alg».proof.Proof.Gen.Pre_finite_inputs
import proofs.«172603_j25658134626696_2_alg».proof.Proof.KRun
import proofs.«172603_j25658134626696_2_alg».proof.Proof.RefValue
import proofs.«172603_j25658134626696_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From memories agreeing on the four arguments the kernel's result is the kernel form and the reference's the
    reference form of the same batch and the same two stripe grids: one function. -/
theorem algebraic : Cert.algebraic_KernelIdeal_ReferenceIdeal := by
  intro m ρ m' ρ' _ hagree
  refine ⟨fun c => Cert.GridMask.kerForm (m ((c.tc : Thread Cert.KernelIdeal.nD Cert.KernelIdeal.τ).loc Cert.KernelIdeal.main_arg0))
      (Cert.KernelIdeal.KValue.rowStripes m c) (Cert.KernelIdeal.KValue.colStripes m c),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  exact (Cert.GridMask.kerForm_eq_refForm _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
